-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  main_v3
-- ==== Kernel.lean ====
abbrev S65536x1000 : Shape := ⟨2, ![65536, 1000]⟩
abbrev S65536 : Shape := ⟨1, ![65536]⟩
abbrev S1x65536 : Shape := ⟨2, ![1, 65536]⟩
abbrev S16x128 : Shape := ⟨2, ![16, 128]⟩
abbrev S1024x1000 : Shape := ⟨2, ![1024, 1000]⟩
abbrev S1x1024 : Shape := ⟨2, ![1, 1024]⟩
abbrev S8x128 : Shape := ⟨2, ![8, 128]⟩
abbrev S1024x1 : Shape := ⟨2, ![1024, 1]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1x65536, .i32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1x1024, .i32⟩
  | .local _ .vmem, ⟨3, _⟩ => ⟨S1x1024, .i32⟩
  | .local _ .vmem, ⟨4, _⟩ => ⟨S8x128, .f32⟩
  | .local _ .vmem, ⟨5, _⟩ => ⟨S8x128, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536_S1x65536 : S65536.ShapeCasts S1x65536
  inb_S8x128_S8x128_0_0 : ∀ a, (![0, 0] : Fin 2 → Nat) a + S8x128.size a ≤ S8x128.size a
  h_S8x128 : 0 < S8x128.numel
  inb_S1024x1000_S1024x1000_0_0 : ∀ a, (![0, 0] : Fin 2 → Nat) a + S1024x1000.size a ≤ S1024x1000.size a
  h_S1024x1000 : 0 < S1024x1000.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  iota_S1024x1000_d1_w32 : S1024x1000.Iotas .tc 32 [1]
  broadcasts_S1024x1_S1024x1000 : S1024x1.Broadcasts S1024x1000
  reduces_S1024x1000_S1024 : S1024x1000.Reduces [1] S1024
  shapeCasts_S1024_S1024x1 : S1024.ShapeCasts S1024x1
  reduces_S1024x1_S1 : S1024x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x65536.size a
  hwx0_1 : ∀ i : grid0.Coords, EltTy.bits .i32 = 32 ∨ (Rect.block (s := S1x65536) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S65536 : Shape := ⟨1, ![65536]⟩
abbrev S1000 : Shape := ⟨1, ![1000]⟩
abbrev S1x1000 : Shape := ⟨2, ![1, 1000]⟩
abbrev S65536x1 : Shape := ⟨2, ![65536, 1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000, .i32⟩
  | .hbm, ⟨3, _⟩ => ⟨S1x1000, .i32⟩
  | .hbm, ⟨4, _⟩ => ⟨S65536x1, .i32⟩
  | .hbm, ⟨5, _⟩ => ⟨S65536x1000, .i32⟩
  | .hbm, ⟨6, _⟩ => ⟨S65536x1000, .i32⟩
  | .hbm, ⟨7, _⟩ => ⟨S65536x1000, .i1⟩
  | .hbm, ⟨8, _⟩ => ⟨S65536x1000, .f32⟩
  | .hbm, ⟨9, _⟩ => ⟨S65536x1000, .f32⟩
  | .hbm, ⟨10, _⟩ => ⟨S_, .f32⟩
  | .hbm, ⟨11, _⟩ => ⟨S65536x1000, .f32⟩
  | .hbm, ⟨12, _⟩ => ⟨S65536x1000, .f32⟩
  | .hbm, ⟨13, _⟩ => ⟨S_, .f32⟩
  | .hbm, ⟨14, _⟩ => ⟨S65536x1000, .f32⟩
  | .hbm, ⟨15, _⟩ => ⟨S65536x1000, .f32⟩
  | .hbm, ⟨16, _⟩ => ⟨S_, .f32⟩
  | .hbm, ⟨17, _⟩ => ⟨S65536x1000, .f32⟩
  | .hbm, ⟨18, _⟩ => ⟨S65536x1000, .i1⟩
  | .hbm, ⟨19, _⟩ => ⟨S65536x1000, .f32⟩
  | .hbm, ⟨20, _⟩ => ⟨S_, .f32⟩
  | .hbm, ⟨21, _⟩ => ⟨S65536x1000, .f32⟩
  | .hbm, ⟨22, _⟩ => ⟨S65536x1000, .f32⟩
  | .hbm, ⟨23, _⟩ => ⟨S65536x1000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S65536_S65536x1_0 : S65536.BroadcastsInDim S65536x1 (![0] : Fin 1 → Fin S65536x1.rank)
  bcast_S1x1000_S65536x1000_0_1 : S1x1000.BroadcastsInDim S65536x1000 (![0, 1] : Fin 2 → Fin S65536x1000.rank)
  bcast_S65536x1_S65536x1000_0_1 : S65536x1.BroadcastsInDim S65536x1000 (![0, 1] : Fin 2 → Fin S65536x1000.rank)
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts₀]

class Facts : Prop extends Facts₀ where

variable [Facts]
-- ==== Proof.HingeLoss.lean ====
/-
  The function both programs compute, stated once over the two argument arrays and over no program.

  For a score `x`, a class index `k` and a target class `t` (both 32-bit words), the MARGIN is `x` when `k = t` and
  `-x` otherwise; the LOSS of a margin `m` is the squared hinge `max(0, 1 - m)²` where `m ≥ -1` and the line `-4·m` below
  it. The result is the sum of the losses of all 65536 × 1000 scores, divided by 65536. Everything is read on the extended
  reals, and the four float constants stay the f32 words they are printed as: the same word stands on both sides of every
  equation below, so none of them is ever evaluated except the zero a sum starts from.

  The total is written as a sum over row numbers `R < 65536` of the row's own sum over its 1000 classes (`rowLoss`). A
  block of 1024 consecutive rows has the sum `blockLoss`, and `sum_range_blocks` — a sum over `a · b` consecutive naturals
  is the sum over `a` blocks of `b` — regroups the total as the 64 blocks' sums, taken as two runs of 32 (`two_runs`).
  Only commutativity and associativity of `+` are used, so nothing here asks the scores to be finite.
-/
import Idealize.ShloMosaic.PureOps.Ideal
import Idealize.ShloMosaic.PureOps.Ideal.Laws
import Idealize.ShloMosaic.Lib.ValueIdx

noncomputable section

namespace Cert.HingeLoss

open Idealize.ShloMosaic Idealize.ShloMosaic.ValueIdx

/-- The margin of the score `x` of class `k` against the target class `t`: the score at the target class, its opposite at
    every other class. -/
def margin (x : EReal) (k t : BitVec 32) : EReal := Scalar.select (IntOp.cmpi .eq k t) x (-x)

/-- The loss of a margin `m`: `max(0, 1 - m)²` where `m ≥ -1`, and `-4 · m` where `m < -1`. -/
def ofMargin (m : EReal) : EReal :=
  Scalar.select (Ideal.cmp .oge m (Ideal.ofBits .f32 0xBF800000#32))
    (max (Ideal.ofBits .f32 0x00000000#32) (Ideal.ofBits .f32 0x3F800000#32 - m)
      * max (Ideal.ofBits .f32 0x00000000#32) (Ideal.ofBits .f32 0x3F800000#32 - m))
    (Ideal.ofBits .f32 0xC0800000#32 * m)

/-- The loss of one score. -/
def term (x : EReal) (k t : BitVec 32) : EReal := ofMargin (margin x k t)

/-- The scores, one row per example and one column per class; and the target class of each example. -/
abbrev Scores : Type := (⟨2, ![65536, 1000]⟩ : Shape).Idx → EReal
abbrev Targets : Type := (⟨1, ![65536]⟩ : Shape).Idx → BitVec 32

/-- The sum of the losses of row `R` over its 1000 classes (zero for a row number past the array, so that the
    function is total in `R`). -/
def rowLoss (X : Scores) (T : Targets) (R : ℕ) : EReal :=
  if h : R < 65536 then ∑ k : Fin 1000, term (X (ix2 ⟨R, h⟩ k)) (BitVec.ofNat 32 k.val) (T (ix1 ⟨R, h⟩)) else 0

/-- The sum of the losses of the 1024 rows of block `n`: rows `1024·n … 1024·n + 1023`. -/
def blockLoss (X : Scores) (T : Targets) (n : ℕ) : EReal := ∑ r : Fin 1024, rowLoss X T (n * 1024 + r.val)

/-- The sum of all the losses. -/
def total (X : Scores) (T : Targets) : EReal := ∑ R ∈ Finset.range 65536, rowLoss X T R

/-- The result: the mean loss per example, the total divided by 65536 (the word `0x47800000`). -/
def mean (X : Scores) (T : Targets) : EReal := Ideal.div (total X T) (Ideal.ofBits .f32 0x47800000#32)

/-- A sum over `a · b` consecutive naturals is the sum over `a` consecutive blocks of `b`, in any commutative monoid. -/
theorem sum_range_blocks {M : Type*} [AddCommMonoid M] (f : ℕ → M) (b : ℕ) :
    ∀ a : ℕ, ∑ R ∈ Finset.range (a * b), f R = ∑ n ∈ Finset.range a, ∑ r ∈ Finset.range b, f (n * b + r)
  | 0 => by rw [Nat.zero_mul, Finset.sum_range_zero, Finset.sum_range_zero]
  | a + 1 => by
    rw [Nat.succ_mul, Finset.sum_range_add, sum_range_blocks f b a, Finset.sum_range_succ]

/-- The total is the sum of the 64 blocks' sums. -/
theorem total_eq_blocks (X : Scores) (T : Targets) : total X T = ∑ n ∈ Finset.range 64, blockLoss X T n := by
  unfold total blockLoss
  rw [show (65536 : ℕ) = 64 * 1024 from rfl, sum_range_blocks _ 1024 64]
  exact Finset.sum_congr rfl fun n _ => (Fin.sum_univ_eq_sum_range (fun r => rowLoss X T (n * 1024 + r)) 1024).symm

/-- The 64 blocks taken as two runs of 32 — blocks 0 … 31 and blocks 32 … 63 — each run's sum started from zero: the two
    partial totals add up to the total. -/
theorem two_runs (X : Scores) (T : Targets) :
    (0 + ∑ s ∈ Finset.range 32, blockLoss X T (0 + s)) + (0 + ∑ s ∈ Finset.range 32, blockLoss X T (32 + s)) = total X T := by
  rw [total_eq_blocks, show (64 : ℕ) = 32 + 32 from rfl, Finset.sum_range_add, zero_add, zero_add]
  exact congrArg₂ (· + ·) (Finset.sum_congr rfl fun s _ => by rw [Nat.zero_add]) rfl

end Cert.HingeLoss

end
-- ==== Proof.RefMean.lean ====
/-
  The reference computes the mean loss `HingeLoss.mean` of its two arguments.

  Read one operation at a time: the class index of entry `(R, k)` is the word of `k` (an iota along the classes, repeated
  over the rows), its target is the target of row `R` (the target vector made a column and repeated over the classes), so
  the entry of the selected array is `HingeLoss.term` of the score — the reference negates with the host's negation, which
  on the extended reals is `-x`. The sum over both axes is then the initial zero plus the sum over every entry, regrouped
  row by row into `HingeLoss.total`; the division is by the same word `65536`.
-/
import proofs.«180109_j62036507623929_2_alg».proof.Proof.Gen.ReferenceIdeal.Read
import proofs.«180109_j62036507623929_2_alg».proof.Proof.HingeLoss
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The target the comparison reads at entry `(R, k)` is row `R`'s: the column form and its repetition over the classes
    both keep the row coordinate. -/
theorem idx_target (R : Fin 65536) (k : Fin 1000) : idx_main_v2 (idx_main_v4 (ix2 R k)) = ix1 R :=
  funext fun a => match a with | ⟨0, _⟩ => rfl

/-- The class index the comparison reads at entry `(R, k)` is `k`'s: the row form and its repetition over the rows both
    keep the class coordinate. -/
theorem idx_class (R : Fin 65536) (k : Fin 1000) : idx_main_v1 (idx_main_v3 (ix2 R k)) = ix1 k :=
  funext fun a => match a with | ⟨0, _⟩ => rfl

/-- The entry `(R, k)` of the array the reference sums is the loss of the score `(R, k)` for class `k` against row `R`'s
    target. -/
theorem loss_apply (x0 : HingeLoss.Scores) (x1 : HingeLoss.Targets) (R : Fin 65536) (k : Fin 1000) :
    val_main_v17 (F := Ideal) x0 x1 (ix2 R k) = HingeLoss.term (x0 (ix2 R k)) (BitVec.ofNat 32 k.val) (x1 (ix1 R)) := by
  simp only [val_main_v17_apply, val_main_v13_apply, val_main_v14_apply, val_main_v16_apply, val_main_v11_apply,
    val_main_v9_apply, val_main_v7_apply, val_main_v5_apply, val_main_v6_apply, val_main_v3_apply, val_main_v4_apply,
    val_main_v1_apply, val_main_v2_apply, val_main_v0_apply, val_main_v8_apply, val_main_v10_apply, val_main_v12_apply,
    val_main_v15_apply, val_main_cst_apply, val_main_cst_0_apply, val_main_cst_1_apply, val_main_cst_2_apply,
    idx_target, idx_class]
  rfl

/-- The reference's sum over both axes is the initial zero plus the total of the losses, row by row. -/
theorem sum_apply (x0 : HingeLoss.Scores) (x1 : HingeLoss.Targets) (i : S_.Idx) :
    val_main_v18 (F := Ideal) x0 x1 i = HingeLoss.total x0 x1 := by
  rw [val_main_v18_apply, val_main_cst_3_apply, sum_idx2]
  show Ideal.ofBits .f32 0x00000000#32 + _ = _
  rw [Ideal.ofBits_zero_f32, zero_add]
  unfold HingeLoss.total
  rw [← Fin.sum_univ_eq_sum_range (fun R => HingeLoss.rowLoss x0 x1 R) 65536]
  refine Finset.sum_congr rfl fun R _ => ?_
  unfold HingeLoss.rowLoss
  rw [dif_pos R.isLt]
  exact Finset.sum_congr rfl fun k _ => loss_apply x0 x1 R k

/-- The reference's result, at its one index, is the mean loss. -/
theorem result_eq (x0 : HingeLoss.Scores) (x1 : HingeLoss.Targets) :
    val_main_v19 (F := Ideal) x0 x1 = fun _ => HingeLoss.mean x0 x1 := by
  funext i
  rw [val_main_v19_apply, sum_apply, val_main_cst_4_apply]
  rfl

end Cert.ReferenceIdeal.RefValue

end
-- ==== Proof.CaseValues.lean ====
/-
  What each of the body's two control cases leaves in the output block's staging buffer, as a value.

  At a point whose second grid coordinate is not zero the body reads the buffer's contents `acc`, and its one store covers
  the whole block with the payload of the two loaded input blocks over `acc`. At a point whose second coordinate is zero
  the body first covers the block with zeros, reads that back, and then covers it with the payload over the zero block.
-/
import proofs.«180109_j62036507623929_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen
open Idealize.ShloMosaic Idealize.ShloMosaic.TcCoe Idealize.SL.Sem

variable {F : FTy → Type} [FloatOps F]

/-- Every load and store of the body is at offset `(0, 0)` of its buffer. -/
theorem hz : (![0, 0] : Fin 2 → Nat) = fun _ => 0 := funext fun a => by fin_cases a <;> rfl

/-- Second coordinate not zero: the buffer holding `acc` ends at the payload of the input blocks over `acc`. -/
theorem out_B (c : Dev nD) (i : grid0.Coords) (a2 : Memref sig .tc .vmem S1024x1000 .f32) (h2 : a2.IsWhole)
    (a3 : Memref sig .tc .vmem S1x1024 .i32) (h3 : a3.IsWhole) (a4 : Memref sig .tc .vmem S8x128 .f32) (h4 : a4.IsWhole)
    (hc : ¬cond0_0 i) (x : Vec F S1024x1000 .f32) (t : Vec F S1x1024 .i32) (acc : Vec F S8x128 .f32) :
    out0_B_2 c i a2 h2 a3 h3 a4 h4 hc x t acc = k0_pay2 x t acc := by
  unfold out0_B_2
  rw [View.read_writes_eq_canon _ _ _ (cover0_B_2 c i a2 h2 a3 h3 a4 h4 hc x t acc)]
  unfold kernelRun0_B
  dsimp only
  rw [View.canon_unit_zero hz]
  simp only [View.readAt_eq_ld, h2.read_unread, h3.read_unread, h4.read_unread, View.ld_unit_zero (S := S1024x1000) hz,
    View.ld_unit_zero (S := S1x1024) hz, View.ld_unit_zero (S := S8x128) hz]

/-- Second coordinate zero: whatever the buffer held, it ends at the payload of the input blocks over the zero block the
    body stored first and read back. -/
theorem out_A (c : Dev nD) (i : grid0.Coords) (a2 : Memref sig .tc .vmem S1024x1000 .f32) (h2 : a2.IsWhole)
    (a3 : Memref sig .tc .vmem S1x1024 .i32) (h3 : a3.IsWhole) (a4 : Memref sig .tc .vmem S8x128 .f32) (h4 : a4.IsWhole)
    (hc : cond0_0 i) (x : Vec F S1024x1000 .f32) (t : Vec F S1x1024 .i32) :
    out0_A_2 c i a2 h2 a3 h3 a4 h4 hc x t = k0_pay2 x t (k0_pay1 (F := F)) := by
  unfold out0_A_2
  rw [View.read_writes_eq_canon _ _ _ (cover0_A_2 c i a2 h2 a3 h3 a4 h4 hc x t)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S1024x1000) hz,
    View.ld_unit_zero (S := S1x1024) hz, View.ld_unit_zero (S := S8x128) hz]

end Cert.KernelIdeal.Cases

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BlockPayload.lean ====
/-
  What the kernel body adds into its output block at one grid point, read on the extended reals.

  The body loads a block `x` of 1024 rows of scores and the 1024 targets `t` of those rows (as one row `[1, 1024]`), forms
  the loss of every entry (`lossBlk`), sums each row over its 1000 classes, sums the 1024 row sums, and adds that one
  number to every entry of the `[8, 128]` block `acc` it read from the output buffer. So at every entry `(a, b)` the stored
  block is `acc (a, b) + ∑ r, ∑ k, term (x (r, k)) k (t (0, r))`.

  The entry of `lossBlk`: the class index is an iota along the classes; the target is the row `[1, 1024]` transposed to a
  column and repeated along the classes, so entry `(r, k)` reads target `(0, r)`; the body's opposite of a score is
  `0 - x`, which is `-x` on every extended real.
-/
import proofs.«180109_j62036507623929_2_alg».proof.Proof.Gen.KernelIdeal.Skeleton
import proofs.«180109_j62036507623929_2_alg».proof.Proof.HingeLoss
import proofs.«180109_j62036507623929_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-- The losses of the entries of one block: the body's elementwise chain, from the two loaded blocks. -/
def lossBlk (x : FVec Ideal S1024x1000 .f32) (t : IVec S1x1024 32) : FVec Ideal S1024x1000 .f32 :=
  have tcol : IVec S1024x1000 32 :=
    broadcastTo S1024x1000 (transpose S1024x1 [1, 0] (shapeCast S1x1024 t shapeCasts_S1x1024_S1x1024) transposes_S1x1024_p1_0_S1024x1)
      broadcasts_S1024x1_S1024x1000
  have hit : IVec S1024x1000 1 := cmpi .eq (iota .tc S1024x1000 32 [1] iota_S1024x1000_d1_w32) tcol
  have m : FVec Ideal S1024x1000 .f32 := select hit x (subf (broadcast S1024x1000 (Scalar.ofBits .f32 0x00000000#32)) x)
  have hinge : FVec Ideal S1024x1000 .f32 :=
    maximumf (broadcast S1024x1000 (Scalar.ofBits .f32 0x00000000#32)) (subf (broadcast S1024x1000 (Scalar.ofBits .f32 0x3F800000#32)) m)
  select (cmpf .oge m (broadcast S1024x1000 (Scalar.ofBits .f32 0xBF800000#32))) (mulf hinge hinge)
    (mulf (broadcast S1024x1000 (Scalar.ofBits .f32 0xC0800000#32)) m)

/-- An integer comparison of two arrays, read at an index, compares the two entries. -/
theorem cmpi_apply {s : Shape} {w : ℕ} (p : CmpIPredicate) (a b : IVec s w) (i : s.Idx) :
    cmpi p a b i = IntOp.cmpi p (a i) (b i) := rfl

/-- The target entry `(r, k)` is compared with: target `(0, r)` of the loaded row. -/
theorem target_apply (t : IVec S1x1024 32) (r : Fin 1024) (k : Fin 1000) :
    broadcastTo S1024x1000 (transpose S1024x1 [1, 0] (shapeCast S1x1024 t shapeCasts_S1x1024_S1x1024) transposes_S1x1024_p1_0_S1024x1)
      broadcasts_S1024x1_S1024x1000 (ix2 r k) = t (ix2 (0 : Fin 1) r) := by
  rw [Cert.Keepdims.broadcastTo_a1_ab_apply, transpose_ix2_apply, shapeCast_self]

/-- The class index entry `(r, k)` carries: the word of `k`. -/
theorem class_apply (r : Fin 1024) (k : Fin 1000) :
    iota .tc S1024x1000 32 [1] iota_S1024x1000_d1_w32 (ix2 r k) = BitVec.ofNat 32 k.val :=
  iota_single_apply .tc S1024x1000 32 1 iota_S1024x1000_d1_w32 (ix2 r k)

/-- Entry `(r, k)` of the block's losses is the loss of score `(r, k)` for class `k` against target `(0, r)`. -/
theorem lossBlk_apply (x : FVec Ideal S1024x1000 .f32) (t : IVec S1x1024 32) (r : Fin 1024) (k : Fin 1000) :
    lossBlk x t (ix2 r k) = HingeLoss.term (x (ix2 r k)) (BitVec.ofNat 32 k.val) (t (ix2 (0 : Fin 1) r)) := by
  have hneg : Ideal.ofBits .f32 0x00000000#32 - x (ix2 r k) = -x (ix2 r k) := by rw [Ideal.ofBits_zero_f32, zero_sub]
  unfold lossBlk HingeLoss.term HingeLoss.ofMargin HingeLoss.margin
  simp only [select_apply, cmpf_apply, mulf_apply, subf_apply, maximumf_apply, broadcast_apply, cmpi_apply, Ideal.ofBits_def,
    Ideal.cmpf_def, hneg]
  rw [class_apply, target_apply]

/-- Entry `r` of the sum along the classes is the sum of row `r`'s 1000 entries. -/
theorem rowSum_apply (L : FVec Ideal S1024x1000 .f32) (r : Fin 1024) :
    multiReduction .add [1] S1024 L 0x00000000#32 reduces_S1024x1000_S1024 (.inl rfl) rfl (ix1 r) = ∑ k : Fin 1000, L (ix2 r k) :=
  (Ideal.multiReduction_add_single L 0x00000000#32 reduces_S1024x1000_S1024 (.inl rfl) rfl (ix1 r)).trans
    (Finset.sum_congr rfl fun k _ => congrArg L (funext fun a => match a with | ⟨0, _⟩ => rfl | ⟨1, _⟩ => rfl))

/-- The sum along the rows of the row sums, kept as a column `[1024, 1]`: its one entry is the sum of the 1024 row sums. -/
theorem colSum_apply (v : FVec Ideal S1024 .f32) (u : Fin 1) :
    multiReduction .add [0] S1 (shapeCast S1024x1 v shapeCasts_S1024_S1024x1) 0x00000000#32 reduces_S1024x1_S1 (.inl rfl) rfl (ix1 u)
      = ∑ r : Fin 1024, v (ix1 r) :=
  (Ideal.multiReduction_add_single (shapeCast S1024x1 v shapeCasts_S1024_S1024x1) 0x00000000#32 reduces_S1024x1_S1 (.inl rfl) rfl (ix1 u)).trans
    (Finset.sum_congr rfl fun r _ =>
      (congrArg (shapeCast S1024x1 v shapeCasts_S1024_S1024x1)
        (funext fun a => match a with | ⟨0, _⟩ => rfl | ⟨1, _⟩ => rfl : reduces_S1024x1_S1.lift (ix1 u) r = ix2 r u)).trans
        (Cert.Keepdims.shapeCast_a_a1_apply v shapeCasts_S1024_S1024x1 r u))

/-- A `[1, 1]` array repeated to `[8, 128]` reads its one entry everywhere. -/
theorem splat_apply (w : FVec Ideal S1x1 .f32) (a : Fin 8) (b : Fin 128) :
    broadcastTo S8x128 w broadcasts_S1x1_S8x128 (ix2 a b) = w (ix2 (0 : Fin 1) (0 : Fin 1)) :=
  broadcastTo_apply w broadcasts_S1x1_S8x128 (ix2 a b) (ix2 (0 : Fin 1) (0 : Fin 1)) fun ax => match ax with
    | ⟨0, _⟩ => by show (0 : ℕ) = if (1 : ℕ) = 1 then 0 else _; rw [if_pos rfl]
    | ⟨1, _⟩ => by show (0 : ℕ) = if (1 : ℕ) = 1 then 0 else _; rw [if_pos rfl]

/-- THE PAYLOAD AT AN ENTRY: the block the body stores holds, at every entry, the entry it read from the output buffer
    plus the sum of the losses of the whole loaded block. -/
theorem pay_apply (x : FVec Ideal S1024x1000 .f32) (t : IVec S1x1024 32) (acc : FVec Ideal S8x128 .f32) (a : Fin 8) (b : Fin 128) :
    k0_pay2 (F := Ideal) x t acc (ix2 a b)
      = acc (ix2 a b) + ∑ r : Fin 1024, ∑ k : Fin 1000, HingeLoss.term (x (ix2 r k)) (BitVec.ofNat 32 k.val) (t (ix2 (0 : Fin 1) r)) := by
  show addf (shapeCast S8x128 acc shapeCasts_S8x128_S8x128)
    (broadcastTo S8x128 (shapeCast S1x1 (shapeCast S1x1
      (multiReduction .add [0] S1 (shapeCast S1024x1
        (multiReduction .add [1] S1024 (lossBlk x t) 0x00000000#32 reduces_S1024x1000_S1024 (.inl rfl) rfl)
        shapeCasts_S1024_S1024x1) 0x00000000#32 reduces_S1024x1_S1 (.inl rfl) rfl)
      shapeCasts_S1_S1x1) shapeCasts_S1x1_S1x1) broadcasts_S1x1_S8x128) (ix2 a b) = _
  rw [addf_apply, shapeCast_self, splat_apply, shapeCast_self, Cert.Keepdims.shapeCast_a_a1_apply, colSum_apply]
  exact congrArg (acc (ix2 a b) + ·) (Finset.sum_congr rfl fun r _ =>
    (rowSum_apply (lossBlk x t) r).trans (Finset.sum_congr rfl fun k _ => lossBlk_apply x t r k))

end Cert.KernelIdeal.Pay

end
-- ==== Proof.RunningTotal.lean ====
/-
  What the output block's staging buffer holds after each grid point, on the extended reals: a running total.

  The 64 points run in two stretches of 32 (one per value of the first grid coordinate). The first point of a stretch
  resets the block to zero and adds its own block's sum of losses; every later point adds its own to what the point before
  left. So after point `t` every entry of the buffer holds zero plus the sum of the addends of the points of `t`'s stretch
  up to `t`: points `32·(t / 32) … t`.
-/
import proofs.«180109_j62036507623929_2_alg».proof.Proof.Gen.KernelIdeal.Frame
import proofs.«180109_j62036507623929_2_alg».proof.Proof.CaseValues
import proofs.«180109_j62036507623929_2_alg».proof.Proof.BlockPayload
import Idealize.ShloMosaic.Lib.Pipeline.Value

noncomputable section

namespace Cert.KernelIdeal.Acc

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- What the body adds at point `n`: the sum of the losses of the entries of the point's block of scores, each against
    the point's block of targets (zero for a number past the grid, so that the function is total in `n`). -/
def addend (c : Dev nD) (n : ℕ) : EReal :=
  if h : n < cfg0.N then
    ∑ r : Fin 1024, ∑ k : Fin 1000,
      HingeLoss.term ((iblk m c 0 ⟨n, h⟩ : FVec Ideal S1024x1000 .f32) (ix2 r k)) (BitVec.ofNat 32 k.val)
        ((iblk m c 1 ⟨n, h⟩ : IVec S1x1024 32) (ix2 (0 : Fin 1) r))
  else 0

/-- One point's step: over a buffer holding `acc`, the stored block holds at every entry that entry of `acc` plus the
    point's addend. -/
theorem step_apply (c : Dev nD) (n : ℕ) (h : n < cfg0.N) (acc : FVec Ideal S8x128 .f32) (i : S8x128.Idx) :
    k0_pay2 (F := Ideal) (iblk m c 0 ⟨n, h⟩) (iblk m c 1 ⟨n, h⟩) acc i = acc i + addend m c n := by
  obtain ⟨p, q, rfl⟩ : ∃ (p : Fin 8) (q : Fin 128), i = ix2 p q := ⟨i 0, i 1, eq_ix2 i⟩
  refine (Pay.pay_apply (iblk m c 0 ⟨n, h⟩) (iblk m c 1 ⟨n, h⟩) acc p q).trans ?_
  unfold addend
  rw [dif_pos h]

/-- THE RUNNING TOTAL: after point `t` every entry of the buffer holds zero plus the addends of points
    `32·(t / 32) … t`. -/
theorem outsAt_apply (c : Dev nD) (t : ℕ) (ht : t < cfg0.N) (i : S8x128.Idx) :
    outsAt0 m c t ht i
      = Ideal.ofBits .f32 0x00000000#32 + ∑ s ∈ Finset.range (t % 32 + 1), addend m c (32 * (t / 32) + s) := by
  have h' : 32 * (t / 32) + t % 32 < cfg0.N := by rw [Nat.div_add_mod]; exact ht
  refine (congrFun (Pipeline.eq_accAt_of_mod (fun n h => outsAt0 m c n h) 32
      (fun n h => k0_pay2 (F := Ideal) (iblk m c 0 ⟨n, h⟩) (iblk m c 1 ⟨n, h⟩) (k0_pay1 (F := Ideal)))
      (fun n h acc => k0_pay2 (F := Ideal) (iblk m c 0 ⟨n, h⟩) (iblk m c 1 ⟨n, h⟩) acc)
      (fun n h h0 => (outsAt0_A m c ⟨n, h⟩ h0).trans
        (Cases.out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
          ((hcond0_0 ⟨n, h⟩).mpr h0) (iblk m c 0 ⟨n, h⟩) (iblk m c 1 ⟨n, h⟩)))
      (fun n h hne => (outsAt0_B m c ⟨n + 1, h⟩ hne).trans
        (Cases.out_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (fun hh => hne ((hcond0_0 ⟨n + 1, h⟩).mp hh)) (iblk m c 0 ⟨n + 1, h⟩)
          (iblk m c 1 ⟨n + 1, h⟩) (outsAt0 m c n (Nat.lt_of_succ_lt h))))
      (by decide) t ht h') i).trans ?_
  exact Pipeline.accAt_add_apply _ _ (fun _ => Ideal.ofBits .f32 0x00000000#32) (fun n _ => addend m c n) (32 * (t / 32)) (t % 32)
    (fun h j => step_apply m c _ h (k0_pay1 (F := Ideal)) j)
    (fun n h acc j _ _ => step_apply m c n h acc j)
    (t % 32) le_rfl h' i

end Cert.KernelIdeal.Acc

end
-- ==== Proof.BlockReads.lean ====
/-
  A grid point's two input blocks, read off the argument arrays, and so the point's addend as a block's sum of losses.

  Point `n` of the 64 (the 2 × 32 grid in row-major order) reads block `n` of both inputs: rows `1024·n … 1024·n + 1023` of the
  scores, and entries `1024·n … 1024·n + 1023` of the targets laid out as one row `[1, 65536]` — the host re-lays the target
  vector that way before the call, which moves nothing. So the point's addend is `HingeLoss.blockLoss` of the argument arrays.
-/
import proofs.«180109_j62036507623929_2_alg».proof.Proof.RunningTotal
import Idealize.ShloMosaic.Lib.ValueLayout
import Idealize.ShloMosaic.Lib.StableHlo.Run

noncomputable section

namespace Cert.KernelIdeal.Acc

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The printed index maps over the grid: at point `t` the scores' block index is `(t, 0)`, the targets' `(0, t)`, and
    the output's `(t / 32, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = t.val / 32 ∧ win0_2.index t (1 : Fin 2) = 0 :=
  (by decide +kernel : ∀ t : Fin grid0.N, _)

/-- The scores as the arguments give them, and the targets. -/
abbrev scores (c : Dev nD) : HingeLoss.Scores := m ((c : Thread nD τ).loc main_arg0)
abbrev targets (c : Dev nD) : HingeLoss.Targets := m ((c : Thread nD τ).loc main_arg1)

/-- Row `r` of point `n`'s block of scores is row `1024·n + r` of the scores. -/
theorem scores_apply (c : Dev nD) (n : ℕ) (h : n < cfg0.N) (r : Fin 1024) (k : Fin 1000) (hR : n * 1024 + r.val < 65536) :
    (iblk m c 0 ⟨n, h⟩ : FVec Ideal S1024x1000 .f32) (ix2 r k) = scores m c (ix2 ⟨n * 1024 + r.val, hR⟩ k) := by
  have e0 : win0_0.index ⟨n, h⟩ (0 : Fin 2) = n := (idx_facts ⟨n, h⟩).1
  have e1 : win0_0.index ⟨n, h⟩ (1 : Fin 2) = 0 := (idx_facts ⟨n, h⟩).2.1
  show V m c main_arg0 (((cfg0.win 0).blk ⟨n, h⟩).view.emb (ix2 r k)) = _
  rw [V_main_arg0]
  refine congrArg (m ((c : Thread nD τ).loc main_arg0)) (funext fun a => Fin.ext ?_)
  match a with
  | ⟨0, _⟩ => show win0_0.index ⟨n, h⟩ (0 : Fin 2) * 1024 + 1 * r.val = n * 1024 + r.val; rw [e0]; omega
  | ⟨1, _⟩ => show win0_0.index ⟨n, h⟩ (1 : Fin 2) * 1000 + 1 * k.val = k.val; rw [e1]; omega

/-- The targets' array as the region finds it: the target vector laid out as one row. -/
theorem targets_row (c : Dev nD) :
    (V m c main_v0 : S1x65536.Idx → BitVec 32) = shapeCast S1x65536 (m ((c : Thread nD τ).loc main_arg1)) shapeCasts_S65536_S1x65536 := by
  show StableHlo.after hostOps0 (fun b => m (c, b)) (Proc.devRef .tc main_v0) = _
  after_results
  rfl

/-- Entry `r` of point `n`'s block of targets is entry `1024·n + r` of the targets. -/
theorem targets_apply (c : Dev nD) (n : ℕ) (h : n < cfg0.N) (r : Fin 1024) (hR : n * 1024 + r.val < 65536) :
    (iblk m c 1 ⟨n, h⟩ : IVec S1x1024 32) (ix2 (0 : Fin 1) r) = targets m c (ix1 ⟨n * 1024 + r.val, hR⟩) := by
  have e0 : win0_1.index ⟨n, h⟩ (0 : Fin 2) = 0 := (idx_facts ⟨n, h⟩).2.2.1
  have e1 : win0_1.index ⟨n, h⟩ (1 : Fin 2) = n := (idx_facts ⟨n, h⟩).2.2.2.1
  show V m c main_v0 (((cfg0.win 1).blk ⟨n, h⟩).view.emb (ix2 (0 : Fin 1) r)) = _
  have hidx : ((cfg0.win 1).blk ⟨n, h⟩).view.emb (ix2 (0 : Fin 1) r) = ix2 (0 : Fin 1) (⟨n * 1024 + r.val, hR⟩ : Fin 65536) :=
    funext fun a => Fin.ext (match a with
      | ⟨0, _⟩ => by show win0_1.index ⟨n, h⟩ (0 : Fin 2) * 1 + 1 * 0 = 0; rw [e0]
      | ⟨1, _⟩ => by show win0_1.index ⟨n, h⟩ (1 : Fin 2) * 1024 + 1 * r.val = n * 1024 + r.val; rw [e1]; omega)
  rw [hidx, targets_row, shapeCast_a_1a_apply]

/-- A point's addend is its block's sum of losses, of the argument arrays. -/
theorem addend_eq (c : Dev nD) (n : ℕ) (h : n < cfg0.N) : addend m c n = HingeLoss.blockLoss (scores m c) (targets m c) n := by
  have hN : n < 64 := lt_of_lt_of_eq h N_0
  unfold addend HingeLoss.blockLoss
  rw [dif_pos h]
  refine Finset.sum_congr rfl fun r _ => ?_
  have hR : n * 1024 + r.val < 65536 := by have := r.isLt; omega
  unfold HingeLoss.rowLoss
  rw [dif_pos hR]
  refine Finset.sum_congr rfl fun k _ => ?_
  rw [scores_apply m c n h r k hR, targets_apply m c n h r hR]

end Cert.KernelIdeal.Acc

end
-- ==== Proof.KernelMean.lean ====
/-
  The kernel's result on the extended reals: the mean loss `HingeLoss.mean` of its two arguments.

  The output block is written back to the `[16, 128]` array twice — after point 31 into rows 0 … 7, after point 63 into rows
  8 … 15 — each time holding, at every entry, the partial total of its stretch of 32 points. The two write-backs cover the
  array, so after the run entry `(i, j)` holds the partial total of stretch `i / 8`. The host then reads entries `(0, 0)` and
  `(8, 0)`, adds them and divides by 65536: the two partial totals add up to the total of all the losses
  (`HingeLoss.two_runs`), each point's addend being its block's sum (`addend_eq`).
-/
import proofs.«180109_j62036507623929_2_alg».proof.Proof.BlockReads
import Idealize.ShloMosaic.Lib.Pipeline.Value
import Idealize.ShloMosaic.Lib.StableHlo.Run

noncomputable section

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The partial total of stretch `p`: zero plus the addends of its 32 points. -/
def partialTotal (c : Dev nD) (p : ℕ) : EReal :=
  Ideal.ofBits .f32 0x00000000#32 + ∑ s ∈ Finset.range 32, addend m c (32 * p + s)

/-- The output array after the run: row `i` holds, at every entry, the partial total of stretch `i / 8`. -/
def outArr (c : Dev nD) : S16x128.Idx → EReal := fun i => partialTotal m c ((i 0).val / 8)

/-- What a point that writes back writes: its block of `outArr`. Such a point is the last of its stretch, so its buffer
    holds the stretch's whole partial total; and its block's rows are rows `8·(t / 32) … 8·(t / 32) + 7`. -/
theorem flushed_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  have e0 : win0_2.index t (0 : Fin 2) = t.val / 32 := (idx_facts t).2.2.2.2.1
  show (cfg0.win 2).cut (grid0.coords t) ((dats m 0 c).after 2 t) = _
  rw [after0_2]
  funext j
  show outsAt0 m c t.val t.isLt j = partialTotal m c ((win0_2.index t (0 : Fin 2) * 8 + 1 * (j 0).val) / 8)
  have hj : (j 0).val < 8 := (j 0).isLt
  rw [outsAt_apply, h31, e0, show (t.val / 32 * 8 + 1 * (j 0).val) / 8 = t.val / 32 from by omega]
  rfl

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

/-- Every index of the array is in the block of a point that writes back: row `i` in that of the last point of stretch `i / 8`. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 64 := N_0
  have ht : 32 * ((i 0).val / 8) + 31 < cfg0.N := by rw [hN]; omega
  have e0 : win0_2.index ⟨_, ht⟩ (0 : Fin 2) = (32 * ((i 0).val / 8) + 31) / 32 := (idx_facts ⟨_, ht⟩).2.2.2.2.1
  have e1 : win0_2.index ⟨_, ht⟩ (1 : Fin 2) = 0 := (idx_facts ⟨_, ht⟩).2.2.2.2.2
  refine ⟨⟨_, ht⟩, (flush0_2 ⟨_, ht⟩).mpr (by show (32 * ((i 0).val / 8) + 31) % 32 = 31; omega), ?_⟩
  rw [mem_blk]
  intro a
  match a with
  | ⟨0, _⟩ =>
    show win0_2.index ⟨_, ht⟩ (0 : Fin 2) * 8 ≤ (i 0).val ∧ (i 0).val < win0_2.index ⟨_, ht⟩ (0 : Fin 2) * 8 + 8
    rw [e0]; omega
  | ⟨1, _⟩ =>
    show win0_2.index ⟨_, ht⟩ (1 : Fin 2) * 128 ≤ (i 1).val ∧ (i 1).val < win0_2.index ⟨_, ht⟩ (1 : Fin 2) * 128 + 128
    rw [e1]; omega

/-- THE ARRAY after the run. -/
theorem final (c : Dev nD) : (dats m 0 c).arrAt 2 cfg0.N = outArr m c :=
  (dats m 0 c).arrAt_eq_of_cover 2 (outArr m c) (flushed_eq m c) (cover)

/-- The host's lines after the call, on that array: the result. -/
theorem tail_eq (c : Dev nD) :
    Pipeline.afterTail₀ cfgs (dats m) 0 (V0 m) [hostOps1] c main_v7 = fun _ => HingeLoss.mean (scores m c) (targets m c) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v1)
      = outArr m c := (Pipeline.withArrays_arr spec0 launch0.win.arr_inj c _ _ 2).trans (final m c)
  rw [hA]
  funext i
  have r0 : extractStridedSlice S1x1 ![0, 0] (outArr m c) slices_S16x128_S1x1_0_0 (ix2 (0 : Fin 1) (0 : Fin 1))
      = outArr m c (ix2 (0 : Fin 16) (0 : Fin 128)) :=
    extractStridedSlice_apply _ _ _ _ _ fun a => match a with | ⟨0, _⟩ => rfl | ⟨1, _⟩ => rfl
  have r8 : extractStridedSlice S1x1 ![8, 0] (outArr m c) slices_S16x128_S1x1_8_0 (ix2 (0 : Fin 1) (0 : Fin 1))
      = outArr m c (ix2 (8 : Fin 16) (0 : Fin 128)) :=
    extractStridedSlice_apply _ _ _ _ _ fun a => match a with | ⟨0, _⟩ => rfl | ⟨1, _⟩ => rfl
  have sc : ∀ w : FVec Ideal S1x1 .f32, shapeCast S_ w shapeCasts_S1x1_S_ i = w (ix2 (0 : Fin 1) (0 : Fin 1)) := fun w =>
    shapeCast_apply w shapeCasts_S1x1_S_ i (ix2 (0 : Fin 1) (0 : Fin 1)) (by
      have h1 : (S1x1.rowMajor (ix2 (0 : Fin 1) (0 : Fin 1))).val < 1 := (S1x1.rowMajor _).isLt
      have h2 : (S_.rowMajor i).val < 1 := (S_.rowMajor i).isLt
      omega)
  show Ideal.div (shapeCast S_ (extractStridedSlice S1x1 ![0, 0] (outArr m c) slices_S16x128_S1x1_0_0) shapeCasts_S1x1_S_ i
      + shapeCast S_ (extractStridedSlice S1x1 ![8, 0] (outArr m c) slices_S16x128_S1x1_8_0) shapeCasts_S1x1_S_ i)
      (Ideal.ofBits .f32 0x47800000#32) = HingeLoss.mean (scores m c) (targets m c)
  rw [sc, sc, r0, r8]
  unfold HingeLoss.mean
  refine congrArg (Ideal.div · (Ideal.ofBits .f32 0x47800000#32)) ?_
  have hN : cfg0.N = 64 := N_0
  show partialTotal m c 0 + partialTotal m c 1 = _
  unfold partialTotal
  rw [Ideal.ofBits_zero_f32, ← HingeLoss.two_runs]
  refine congrArg₂ (· + ·) (congrArg (0 + ·) (Finset.sum_congr rfl fun s hs => ?_)) (congrArg (0 + ·) (Finset.sum_congr rfl fun s hs => ?_))
  · have hs' : s < 32 := Finset.mem_range.mp hs
    exact addend_eq m c (32 * 0 + s) (by rw [hN]; omega) |>.trans (by rw [Nat.mul_zero])
  · have hs' : s < 32 := Finset.mem_range.mp hs
    exact addend_eq m c (32 * 1 + s) (by rw [hN]; omega) |>.trans (by rw [Nat.mul_one])

/-- THE KERNEL'S RUN, READ: every weakly fair execution ends with the result at the mean loss of the arguments, and the
    arguments as they were. -/
theorem run : θ_run defs (onTc (τ := τ) (main (F := Ideal))) ⟨m, fun _ => 0, ρ⟩ fun r => ∀ c : Dev nD,
      r.2.mem ((c.tc : Thread nD τ).loc main_v7) = (fun _ => HingeLoss.mean (scores m c) (targets m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Acc

end
-- ==== Proof.lean ====
/-
  A multi-class hinge loss with a linear tail, averaged over 65536 examples of 1000 classes: the kernel against the
  reference, on the extended reals.

  For example `R` with target class `t_R` and class `k` with score `x`, the margin is `x` if `k = t_R` and `-x` otherwise, and the
  loss of a margin `m` is `max(0, 1 - m)²` where `m ≥ -1` and `-4·m` below. Both programs return the sum of the losses of all
  65536 × 1000 scores divided by 65536 (`HingeLoss.mean`).

  The reference forms the array of losses and sums it over both axes at once. The kernel walks the rows in 64 blocks of 1024,
  in two stretches of 32 blocks; at each block it sums the block's losses (each row over its classes, then the row sums) and
  adds that number into an `[8, 128]` block that the first block of a stretch resets to zero; the block is written out after
  the last block of each stretch, and the host adds one entry of each of the two written blocks and divides. The two
  differ in how the one sum is grouped — a sum over 65536 rows as 2 × 32 blocks of 1024 rows — and in that the kernel writes
  the opposite of a score as `0 - x`; both are identities of every extended real, so the precondition that the scores are
  finite is never used. The kernel's idealization rewrote nothing, so it is the kernel's own text read on the extended reals.

  The three programs' runs terminate without a fault and leave their arguments as they were: the two kernels' by their
  generated frames, the reference's by its generated run.
-/
import proofs.«180109_j62036507623929_2_alg».proof.Defs
import proofs.«180109_j62036507623929_2_alg».proof.Proof.Gen.Kernel
import proofs.«180109_j62036507623929_2_alg».proof.Proof.Gen.Kernel.Frame
import proofs.«180109_j62036507623929_2_alg».proof.Proof.Gen.KernelIdeal
import proofs.«180109_j62036507623929_2_alg».proof.Proof.Gen.KernelIdeal.Frame
import proofs.«180109_j62036507623929_2_alg».proof.Proof.Gen.ReferenceIdeal
import proofs.«180109_j62036507623929_2_alg».proof.Proof.Gen.ReferenceIdeal.Run
import proofs.«180109_j62036507623929_2_alg».proof.Proof.Gen.ReferenceIdeal.Read
import proofs.«180109_j62036507623929_2_alg».proof.Proof.Gen.Pre_finite_inputs
import proofs.«180109_j62036507623929_2_alg».proof.Proof.HingeLoss
import proofs.«180109_j62036507623929_2_alg».proof.Proof.RefMean
import proofs.«180109_j62036507623929_2_alg».proof.Proof.KernelMean
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the two arguments both runs end with the result at the mean loss of those arguments: the
    kernel's by `Acc.run`, the reference's by its generated run read as `RefValue.result_eq`. -/
theorem algebraic : Cert.algebraic_KernelIdeal_ReferenceIdeal := by
  intro m ρ m' ρ' _ hagree
  refine ⟨fun c _ => HingeLoss.mean (Cert.KernelIdeal.Acc.scores m c) (Cert.KernelIdeal.Acc.targets m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
